-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S320000 : Shape := ⟨1, ![320000]⟩
abbrev S10000x16 : Shape := ⟨2, ![10000, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg6
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S10000x10000 .f32) (main_arg1 : IVec S320000 32) (main_arg2 : IVec S320000 32) (main_arg3 : FVec F S10000x16 .f32) (main_arg4 : FVec F S16 .f32) (main_arg5 : FVec F S16x7 .f32) (main_arg6 : FVec F S7 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x16 .f32 := Host.absf main_arg3
  let main_cst_0 : FVec F S_ .f32 := constant S_ .f32 0x7F800000#32
  let main_v5 : FVec F S10000x16 .f32 := broadcastInDim S10000x16 ![] bcast_S_S10000x16 main_cst_0
  let main_v6 : IVec S10000x16 1 := cmpf .olt main_v4 main_v5
  let main_c_1 : IVec S_ 1 := constantI S_ 1 1#1
  let main_v7 : IVec S_ 1 := (fun x v => Host.reduce IntOp.andi x v reducesTo_S10000x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg5
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg6 main_v13 main_v16
-- ==== Kernel.lean ====
abbrev S10000x10000 : Shape := ⟨2, ![10000, 10000]⟩
abbrev S320000 : Shape := ⟨1, ![320000]⟩
abbrev S10000x16 : Shape := ⟨2, ![10000, 16]⟩
abbrev S16 : Shape := ⟨1, ![16]⟩
abbrev S16x7 : Shape := ⟨2, ![16, 7]⟩
abbrev S7 : Shape := ⟨1, ![7]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S200x10000 : Shape := ⟨2, ![200, 10000]⟩
abbrev S200x1 : Shape := ⟨2, ![200, 1]⟩
abbrev S200x16 : Shape := ⟨2, ![200, 16]⟩
abbrev S320000x16 : Shape := ⟨2, ![320000, 16]⟩
abbrev S1x16 : Shape := ⟨2, ![1, 16]⟩
abbrev S10000x7 : Shape := ⟨2, ![10000, 7]⟩
abbrev S320000x7 : Shape := ⟨2, ![320000, 7]⟩
abbrev S1x7 : Shape := ⟨2, ![1, 7]⟩

abbrev nBuf : Space → Nat
  | .hbm => 73
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S320000, .i32⟩
  | .hbm, ⟨2, _⟩ => ⟨S320000, .i32⟩
  | .hbm, ⟨3, _⟩ => ⟨S10000x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S_, .f32⟩
  | .hbm, ⟨8, _⟩ => ⟨S320000, .f32⟩
  | .hbm, ⟨9, _⟩ => ⟨S_, .f32⟩
  | .hbm, ⟨10, _⟩ => ⟨S10000, .f32⟩
  | .hbm, ⟨11, _⟩ => ⟨S320000x1, .i32⟩
  | .hbm, ⟨12, _⟩ => ⟨S10000, .f32⟩
  | .hbm, ⟨13, _⟩ => ⟨S_, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S320000x1, .i32⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000, .f32⟩
  | .hbm, ⟨28, _⟩ => ⟨S10000x1, .f32⟩
  | .hbm, ⟨29, _⟩ => ⟨S10000x16, .bf16⟩
  | .hbm, ⟨30, _⟩ => ⟨S10000x16, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x16, .f32⟩
  | .hbm, ⟨40, _⟩ => ⟨S_, .f32⟩
  | .hbm, ⟨41, _⟩ => ⟨S10000x16, .f32⟩
  | .hbm, ⟨42, _⟩ => ⟨S320000x1, .i32⟩
  | .hbm, ⟨43, _⟩ => ⟨S10000x16, .f32⟩
  | .hbm, ⟨44, _⟩ => ⟨S10000x16, .f32⟩
  | .hbm, ⟨45, _⟩ => ⟨S10000x16, .f32⟩
  | .hbm, ⟨46, _⟩ => ⟨S1x16, .f32⟩
  | .hbm, ⟨47, _⟩ => ⟨S10000x16, .f32⟩
  | .hbm, ⟨48, _⟩ => ⟨S10000x16, .f32⟩
  | .hbm, ⟨49, _⟩ => ⟨S_, .f32⟩
  | .hbm, ⟨50, _⟩ => ⟨S10000x16, .f32⟩
  | .hbm, ⟨51, _⟩ => ⟨S10000x16, .f32⟩
  | .hbm, ⟨52, _⟩ => ⟨S10000x16, .f32⟩
  | .hbm, ⟨53, _⟩ => ⟨S10000x16, .f32⟩
  | .hbm, ⟨54, _⟩ => ⟨S10000x7, .f32⟩
  | .hbm, ⟨55, _⟩ => ⟨S_, .i32⟩
  | .hbm, ⟨56, _⟩ => ⟨S320000, .i32⟩
  | .hbm, ⟨57, _⟩ => ⟨S320000, .i1⟩
  | .hbm, ⟨58, _⟩ => ⟨S_, .i32⟩
  | .hbm, ⟨59, _⟩ => ⟨S320000, .i32⟩
  | .hbm, ⟨60, _⟩ => ⟨S320000, .i32⟩
  | .hbm, ⟨61, _⟩ => ⟨S320000, .i32⟩
  | .hbm, ⟨62, _⟩ => ⟨S320000x1, .i32⟩
  | .hbm, ⟨63, _⟩ => ⟨S320000x7, .f32⟩
  | .hbm, ⟨64, _⟩ => ⟨S_, .f32⟩
  | .hbm, ⟨65, _⟩ => ⟨S10000x7, .f32⟩
  | .hbm, ⟨66, _⟩ => ⟨S320000x1, .i32⟩
  | .hbm, ⟨67, _⟩ => ⟨S10000x7, .f32⟩
  | .hbm, ⟨68, _⟩ => ⟨S10000x7, .f32⟩
  | .hbm, ⟨69, _⟩ => ⟨S10000x7, .f32⟩
  | .hbm, ⟨70, _⟩ => ⟨S1x7, .f32⟩
  | .hbm, ⟨71, _⟩ => ⟨S10000x7, .f32⟩
  | .hbm, ⟨72, _⟩ => ⟨S10000x7, .f32⟩
  | .local _ .vmem, ⟨0, _⟩ => ⟨S200x10000, .f32⟩
  | .local _ .vmem, ⟨1, _⟩ => ⟨S200x10000, .f32⟩
  | .local _ .vmem, ⟨2, _⟩ => ⟨S200x1, .f32⟩
  | .local _ .vmem, ⟨3, _⟩ => ⟨S200x1, .f32⟩
  | .local _ .vmem, ⟨4, _⟩ => ⟨S10000x16, .bf16⟩
  | .local _ .vmem, ⟨5, _⟩ => ⟨S200x16, .f32⟩
  | .local _ .vmem, ⟨6, _⟩ => ⟨S200x16, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_cst : Ref sig .tc := ⟨.hbm, 49, rfl⟩
abbrev main_call2_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x10000 : S200x1.Broadcasts S200x10000
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S200x16_S200x16_0_0 : ∀ a, (![0, 0] : Fin 2 → Nat) a + S200x16.size a ≤ S200x16.size a
  h_S200x16 : 0 < S200x16.numel
  bcast_S_S10000x16 : S_.BroadcastsInDim S10000x16 (![] : Fin 0 → Fin S10000x16.rank)
  bcast_S10000x1_S10000x16_0_1 : S10000x1.BroadcastsInDim S10000x16 (![0, 1] : Fin 2 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x7 : S_.BroadcastsInDim S10000x7 (![] : Fin 0 → Fin S10000x7.rank)
  bcast_S10000x1_S10000x7_0_1 : S10000x1.BroadcastsInDim S10000x7 (![0, 1] : Fin 2 → Fin S10000x7.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  scatter_S10000_S320000x1_S320000_n_0_0_1_wf : ScatterDims.WF S10000 S320000x1 S320000 [] [0] [0] 1
  dot_S200x10000_S10000x16_S200x16_1_0_0_1_n_n_wf : DotDims.WF S200x10000 S10000x16 S200x16 [1] [0] [0] [1] [] []
  gather_S10000x16_S320000x1_S320000x16_1_0_n_n_0_1_116_wf : GatherDims.WF S10000x16 S320000x1 S320000x16 [1] [0] [] [0] [] 1 ![1, 16]
  scatter_S10000x16_S320000x1_S320000x16_1_0_0_1_wf : ScatterDims.WF S10000x16 S320000x1 S320000x16 [1] [0] [0] 1
  dot_S10000x16_S16x7_S10000x7_1_0_0_1_n_n_wf : DotDims.WF S10000x16 S16x7 S10000x7 [1] [0] [0] [1] [] []
  gather_S10000x7_S320000x1_S320000x7_1_0_n_n_0_1_17_wf : GatherDims.WF S10000x7 S320000x1 S320000x7 [1] [0] [] [0] [] 1 ![1, 7]
  scatter_S10000x7_S320000x1_S320000x7_1_0_0_1_wf : ScatterDims.WF S10000x7 S320000x1 S320000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S10000x1.size a
  hwx0_1 : ∀ i : grid0.Coords, EltTy.bits .f32 = 32 ∨ (Rect.block (s := S10000x1) S200x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S10000x16.size a
  hwx0_2 : ∀ i : grid0.Coords, EltTy.bits .bf16 = 32 ∨ (Rect.block (s := S10000x16) S10000x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x16.size a ≤ S10000x16.size a
  hwx0_3 : ∀ i : grid0.Coords, EltTy.bits .f32 = 32 ∨ (Rect.block (s := S10000x16) S200x16.size (cc0_transform_3 i) (hinb0_3 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def gather_S10000x16_S320000x1_S320000x16_1_0_n_n_0_1_116 : GatherDims S10000x16 S320000x1 S320000x16 where
  offsetDims := [1]
  collapsedSliceDims := [0]
  operandBatchingDims := []
  startIndicesBatchingDims := []
  startIndexMap := [0]
  indexVectorDim := 1
  sliceSizes := ![1, 16]
  wf := gather_S10000x16_S320000x1_S320000x16_1_0_n_n_0_1_116_wf
def scatter_S10000x16_S320000x1_S320000x16_1_0_0_1 : ScatterDims S10000x16 S320000x1 S320000x16 where
  updateWindowDims := [1]
  insertedWindowDims := [0]
  scatterDimsToOperandDims := [0]
  indexVectorDim := 1
  wf := scatter_S10000x16_S320000x1_S320000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S10000x7_S320000x1_S320000x7_1_0_n_n_0_1_17 : GatherDims S10000x7 S320000x1 S320000x7 where
  offsetDims := [1]
  collapsedSliceDims := [0]
  operandBatchingDims := []
  startIndicesBatchingDims := []
  startIndexMap := [0]
  indexVectorDim := 1
  sliceSizes := ![1, 7]
  wf := gather_S10000x7_S320000x1_S320000x7_1_0_n_n_0_1_17_wf
def scatter_S10000x7_S320000x1_S320000x7_1_0_0_1 : ScatterDims S10000x7 S320000x1 S320000x7 where
  updateWindowDims := [1]
  insertedWindowDims := [0]
  scatterDimsToOperandDims := [0]
  indexVectorDim := 1
  wf := scatter_S10000x7_S320000x1_S320000x7_1_0_0_1_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S200x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S320000 : Shape := ⟨1, ![320000]⟩
abbrev S10000x16 : Shape := ⟨2, ![10000, 16]⟩
abbrev S16 : Shape := ⟨1, ![16]⟩
abbrev S16x7 : Shape := ⟨2, ![16, 7]⟩
abbrev S7 : Shape := ⟨1, ![7]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x16 : Shape := ⟨2, ![320000, 16]⟩
abbrev S1x16 : Shape := ⟨2, ![1, 16]⟩
abbrev S10000x7 : Shape := ⟨2, ![10000, 7]⟩
abbrev S320000x7 : Shape := ⟨2, ![320000, 7]⟩
abbrev S1x7 : Shape := ⟨2, ![1, 7]⟩

abbrev nBuf : Space → Nat
  | .hbm => 74
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S320000, .i32⟩
  | .hbm, ⟨2, _⟩ => ⟨S320000, .i32⟩
  | .hbm, ⟨3, _⟩ => ⟨S10000x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S_, .f32⟩
  | .hbm, ⟨8, _⟩ => ⟨S320000, .f32⟩
  | .hbm, ⟨9, _⟩ => ⟨S_, .f32⟩
  | .hbm, ⟨10, _⟩ => ⟨S10000, .f32⟩
  | .hbm, ⟨11, _⟩ => ⟨S320000x1, .i32⟩
  | .hbm, ⟨12, _⟩ => ⟨S10000, .f32⟩
  | .hbm, ⟨13, _⟩ => ⟨S_, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S320000x1, .i32⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000, .f32⟩
  | .hbm, ⟨28, _⟩ => ⟨S10000x1, .f32⟩
  | .hbm, ⟨29, _⟩ => ⟨S10000x10000, .f32⟩
  | .hbm, ⟨30, _⟩ => ⟨S10000x10000, .f32⟩
  | .hbm, ⟨31, _⟩ => ⟨S10000x16, .f32⟩
  | .hbm, ⟨32, _⟩ => ⟨S_, .i32⟩
  | .hbm, ⟨33, _⟩ => ⟨S320000, .i32⟩
  | .hbm, ⟨34, _⟩ => ⟨S320000, .i1⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S320000, .i32⟩
  | .hbm, ⟨39, _⟩ => ⟨S320000x1, .i32⟩
  | .hbm, ⟨40, _⟩ => ⟨S320000x16, .f32⟩
  | .hbm, ⟨41, _⟩ => ⟨S_, .f32⟩
  | .hbm, ⟨42, _⟩ => ⟨S10000x16, .f32⟩
  | .hbm, ⟨43, _⟩ => ⟨S320000x1, .i32⟩
  | .hbm, ⟨44, _⟩ => ⟨S10000x16, .f32⟩
  | .hbm, ⟨45, _⟩ => ⟨S10000x16, .f32⟩
  | .hbm, ⟨46, _⟩ => ⟨S10000x16, .f32⟩
  | .hbm, ⟨47, _⟩ => ⟨S1x16, .f32⟩
  | .hbm, ⟨48, _⟩ => ⟨S10000x16, .f32⟩
  | .hbm, ⟨49, _⟩ => ⟨S10000x16, .f32⟩
  | .hbm, ⟨50, _⟩ => ⟨S_, .f32⟩
  | .hbm, ⟨51, _⟩ => ⟨S10000x16, .f32⟩
  | .hbm, ⟨52, _⟩ => ⟨S10000x16, .f32⟩
  | .hbm, ⟨53, _⟩ => ⟨S10000x16, .f32⟩
  | .hbm, ⟨54, _⟩ => ⟨S10000x16, .f32⟩
  | .hbm, ⟨55, _⟩ => ⟨S10000x7, .f32⟩
  | .hbm, ⟨56, _⟩ => ⟨S_, .i32⟩
  | .hbm, ⟨57, _⟩ => ⟨S320000, .i32⟩
  | .hbm, ⟨58, _⟩ => ⟨S320000, .i1⟩
  | .hbm, ⟨59, _⟩ => ⟨S_, .i32⟩
  | .hbm, ⟨60, _⟩ => ⟨S320000, .i32⟩
  | .hbm, ⟨61, _⟩ => ⟨S320000, .i32⟩
  | .hbm, ⟨62, _⟩ => ⟨S320000, .i32⟩
  | .hbm, ⟨63, _⟩ => ⟨S320000x1, .i32⟩
  | .hbm, ⟨64, _⟩ => ⟨S320000x7, .f32⟩
  | .hbm, ⟨65, _⟩ => ⟨S_, .f32⟩
  | .hbm, ⟨66, _⟩ => ⟨S10000x7, .f32⟩
  | .hbm, ⟨67, _⟩ => ⟨S320000x1, .i32⟩
  | .hbm, ⟨68, _⟩ => ⟨S10000x7, .f32⟩
  | .hbm, ⟨69, _⟩ => ⟨S10000x7, .f32⟩
  | .hbm, ⟨70, _⟩ => ⟨S10000x7, .f32⟩
  | .hbm, ⟨71, _⟩ => ⟨S1x7, .f32⟩
  | .hbm, ⟨72, _⟩ => ⟨S10000x7, .f32⟩
  | .hbm, ⟨73, _⟩ => ⟨S10000x7, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S_S10000x16 : S_.BroadcastsInDim S10000x16 (![] : Fin 0 → Fin S10000x16.rank)
  bcast_S10000x1_S10000x16_0_1 : S10000x1.BroadcastsInDim S10000x16 (![0, 1] : Fin 2 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x7 : S_.BroadcastsInDim S10000x7 (![] : Fin 0 → Fin S10000x7.rank)
  bcast_S10000x1_S10000x7_0_1 : S10000x1.BroadcastsInDim S10000x7 (![0, 1] : Fin 2 → Fin S10000x7.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  scatter_S10000_S320000x1_S320000_n_0_0_1_wf : ScatterDims.WF S10000 S320000x1 S320000 [] [0] [0] 1
  dot_S10000x10000_S10000x16_S10000x16_1_0_0_1_n_n_wf : DotDims.WF S10000x10000 S10000x16 S10000x16 [1] [0] [0] [1] [] []
  gather_S10000x16_S320000x1_S320000x16_1_0_n_n_0_1_116_wf : GatherDims.WF S10000x16 S320000x1 S320000x16 [1] [0] [] [0] [] 1 ![1, 16]
  scatter_S10000x16_S320000x1_S320000x16_1_0_0_1_wf : ScatterDims.WF S10000x16 S320000x1 S320000x16 [1] [0] [0] 1
  dot_S10000x16_S16x7_S10000x7_1_0_0_1_n_n_wf : DotDims.WF S10000x16 S16x7 S10000x7 [1] [0] [0] [1] [] []
  gather_S10000x7_S320000x1_S320000x7_1_0_n_n_0_1_17_wf : GatherDims.WF S10000x7 S320000x1 S320000x7 [1] [0] [] [0] [] 1 ![1, 7]
  scatter_S10000x7_S320000x1_S320000x7_1_0_0_1_wf : ScatterDims.WF S10000x7 S320000x1 S320000x7 [1] [0] [0] 1

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def gather_S10000x16_S320000x1_S320000x16_1_0_n_n_0_1_116 : GatherDims S10000x16 S320000x1 S320000x16 where
  offsetDims := [1]
  collapsedSliceDims := [0]
  operandBatchingDims := []
  startIndicesBatchingDims := []
  startIndexMap := [0]
  indexVectorDim := 1
  sliceSizes := ![1, 16]
  wf := gather_S10000x16_S320000x1_S320000x16_1_0_n_n_0_1_116_wf
def scatter_S10000x16_S320000x1_S320000x16_1_0_0_1 : ScatterDims S10000x16 S320000x1 S320000x16 where
  updateWindowDims := [1]
  insertedWindowDims := [0]
  scatterDimsToOperandDims := [0]
  indexVectorDim := 1
  wf := scatter_S10000x16_S320000x1_S320000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S10000x7_S320000x1_S320000x7_1_0_n_n_0_1_17 : GatherDims S10000x7 S320000x1 S320000x7 where
  offsetDims := [1]
  collapsedSliceDims := [0]
  operandBatchingDims := []
  startIndicesBatchingDims := []
  startIndexMap := [0]
  indexVectorDim := 1
  sliceSizes := ![1, 7]
  wf := gather_S10000x7_S320000x1_S320000x7_1_0_n_n_0_1_17_wf
def scatter_S10000x7_S320000x1_S320000x7_1_0_0_1 : ScatterDims S10000x7 S320000x1 S320000x7 where
  updateWindowDims := [1]
  insertedWindowDims := [0]
  scatterDimsToOperandDims := [0]
  indexVectorDim := 1
  wf := scatter_S10000x7_S320000x1_S320000x7_1_0_0_1_wf

class Facts : Prop extends Facts₀ where

variable [Facts]
-- ==== Proof.ScaledProduct.lean ====
/-
  The first layer's linear transform, as one function of whole arrays.

  A graph convolution with symmetric normalisation first scales node `p`'s feature row by that node's
  out-degree factor `n p` and then applies the weight matrix: entry `(p, q)` of the transformed features is
  `∑ k, (x (p, k) * n p) * w (k, q)`, a sum over the feature axis. Rows do not interact, so the same
  formula read on a band of rows is the band's transform. Stated on extended reals, for any number of rows.
-/
import Idealize.ShloMosaic.Lib.ValueIdx

noncomputable section

namespace Cert.Gcn

open Idealize.ShloMosaic Idealize.ShloMosaic.ValueIdx
open scoped BigOperators

/-- Rows of `x` scaled by the column `n`, then multiplied by `w`: at `(p, q)` the sum over `k` of
    `(x (p, k) * n (p, 0)) * w (k, q)`. -/
def scaledProduct {r : Nat} (x : (⟨2, ![r, 10000]⟩ : Shape).Idx → EReal) (n : (⟨2, ![r, 1]⟩ : Shape).Idx → EReal)
    (w : (⟨2, ![10000, 16]⟩ : Shape).Idx → EReal) : (⟨2, ![r, 16]⟩ : Shape).Idx → EReal :=
  fun i => ∑ k : Fin 10000, (x (ix2 (i 0) k) * n (ix2 (i 0) (0 : Fin 1))) * w (ix2 k (i 1))

/-- The transform read at explicit coordinates. -/
theorem scaledProduct_apply {r : Nat} (x : (⟨2, ![r, 10000]⟩ : Shape).Idx → EReal) (n : (⟨2, ![r, 1]⟩ : Shape).Idx → EReal)
    (w : (⟨2, ![10000, 16]⟩ : Shape).Idx → EReal) (p : Fin r) (q : Fin 16) :
    scaledProduct x n w (ix2 p q) = ∑ k : Fin 10000, (x (ix2 p k) * n (ix2 p (0 : Fin 1))) * w (ix2 k q) := rfl

/-- Band `T` of 200 rows: if a band's rows are rows `T * 200 + p` of the whole features, its factors the
    whole column's entries at those rows, and its weights the whole weights, then the band's transform at `(p, q)` is
    the whole transform at `(T * 200 + p, q)` — rows do not interact. -/
theorem scaledProduct_band (A0 : (⟨2, ![10000, 10000]⟩ : Shape).Idx → EReal) (A1 : (⟨2, ![10000, 1]⟩ : Shape).Idx → EReal)
    (A2 : (⟨2, ![10000, 16]⟩ : Shape).Idx → EReal)
    (x0 : (⟨2, ![200, 10000]⟩ : Shape).Idx → EReal) (x1 : (⟨2, ![200, 1]⟩ : Shape).Idx → EReal)
    (x2 : (⟨2, ![10000, 16]⟩ : Shape).Idx → EReal) (p : Fin 200) (q : Fin 16) (P : Fin 10000)
    (h0 : ∀ k : Fin 10000, x0 (ix2 p k) = A0 (ix2 P k))
    (h1 : x1 (ix2 p (0 : Fin 1)) = A1 (ix2 P (0 : Fin 1)))
    (h2 : ∀ k : Fin 10000, x2 (ix2 k q) = A2 (ix2 k q)) :
    scaledProduct x0 x1 x2 (ix2 p q) = scaledProduct A0 A1 A2 (ix2 P q) := by
  rw [scaledProduct_apply, scaledProduct_apply]
  refine Finset.sum_congr rfl fun k _ => ?_
  rw [h0 k, h1, h2 k]

end Cert.Gcn

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.KernelBlock.lean ====
/-
  What the kernel body computes on one band of rows.

  The body loads a band of 200 feature rows, the band's 200 degree factors as a column, and the whole weight
  matrix; it spreads the column along the rows, multiplies, and contracts the feature axis against the weights into
  a zero accumulator. At the exact values the narrowing to bf16 changes nothing, so entry `(p, q)` of what it stores
  is `∑ k, (x (p, k) * n (p, 0)) * w (k, q)`: the band's scaled product.
-/
import proofs.«102669_j68204080660483_1_alg».proof.Proof.Gen.KernelIdeal.Skeleton
import proofs.«102669_j68204080660483_1_alg».proof.Proof.ScaledProduct
import proofs.«102669_j68204080660483_1_alg».proof.Proof.LibPlainDot
import proofs.«102669_j68204080660483_1_alg».proof.Proof.LibKeepdims

noncomputable section

namespace Cert.Gcn

open Cert.KernelIdeal Cert.KernelIdeal.Gen Idealize.ShloMosaic Idealize.ShloMosaic.ValueIdx
open scoped BigOperators

/-- The body's stored value at `(p, q)`. -/
theorem pay_apply (x0 : Vec Ideal S200x10000 .f32) (x1 : Vec Ideal S200x1 .f32) (x2 : Vec Ideal S10000x16 .bf16)
    (p : Fin 200) (q : Fin 16) :
    k0_pay1 (F := Ideal) x0 x1 x2 (ix2 p q) = ∑ k : Fin 10000, (x0 (ix2 p k) * x1 (ix2 p (0 : Fin 1))) * x2 (ix2 k q) := by
  unfold k0_pay1
  rw [show dot_S200x10000_S10000x16_S200x16_1_0_0_1_n_n
      = Cert.Lib.PlainDot.dims dot_S200x10000_S10000x16_S200x16_1_0_0_1_n_n_wf from rfl,
    Cert.Lib.PlainDot.matmul_zero_apply]
  refine Finset.sum_congr rfl fun k _ => ?_
  rw [shapeCast_self, shapeCast_self]
  show x0 (ix2 p k) * broadcastTo S200x10000 x1 broadcasts_S200x1_S200x10000 (ix2 p k) * x2 (ix2 k q) = _
  rw [Cert.Lib.Keepdims.bcastCol_apply]

/-- The body's stored band is the band's scaled product. -/
theorem pay_eq (x0 : Vec Ideal S200x10000 .f32) (x1 : Vec Ideal S200x1 .f32) (x2 : Vec Ideal S10000x16 .bf16) :
    k0_pay1 (F := Ideal) x0 x1 x2 = scaledProduct x0 x1 x2 := by
  funext j
  obtain ⟨p, q, rfl⟩ : ∃ (p : Fin 200) (q : Fin 16), j = ix2 p q := ⟨j 0, j 1, eq_ix2 j⟩
  rw [pay_apply, scaledProduct_apply]

end Cert.Gcn

end
-- ==== Proof.KernelArray.lean ====
/-
  The array the kernel leaves: the whole scaled product.

  The grid has 50 points; point `t` reads rows `200 t … 200 t + 199` of the features and of the factor column, the
  whole weight matrix, and writes rows `200 t … 200 t + 199` of the output. Each written band is the band's scaled
  product, which is the matching band of the whole array's scaled product because rows do not interact; the 50 bands
  tile the 10000 rows. So after the last point the output array is the scaled product of the arrays the region
  found.
-/
import proofs.«102669_j68204080660483_1_alg».proof.Proof.Gen.KernelIdeal.Frame
import proofs.«102669_j68204080660483_1_alg».proof.Proof.KernelBlock
import Idealize.ShloMosaic.Lib.Pipeline.Value

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin2 : (![0, 0] : Fin 2 → Nat) = fun _ => 0 := funext fun a => by fin_cases a <;> rfl

/-- Where each window's block sits at point `t`: features, factors and output at row block `t`, column block 0;
    the weights at block (0, 0). -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is band `t` of the scaled product of the arrays the region found. -/
theorem flushed_eq (c : Dev nD) (t : Fin cfg0.N) :
    (dats m 0 c).flushed 3 t
      = ((cfg0.win 3).blk t).view.read (Elt Ideal) (scaledProduct (V m c main_arg0) (V m c main_v10) (V m c main_v13)) := by
  show (cfg0.win 3).cut (grid0.coords t) ((dats m 0 c).after 3 t) = _
  rw [after0_3]
  unfold out0_3
  rw [View.canon_unit_zero origin2]
  simp only [View.ld_unit_zero (S := S200x10000) origin2, View.ld_unit_zero (S := S200x1) origin2,
    View.ld_unit_zero (S := S10000x16) origin2]
  rw [pay_eq]
  obtain ⟨e00, e01, e10, e11, e20, e21, e30, e31⟩ := block_indices t
  have ht : t.val < 50 := Nat.lt_of_lt_of_eq t.isLt (N_0 : cfg0.N = 50)
  funext j
  obtain ⟨p, q, rfl⟩ : ∃ (p : Fin 200) (q : Fin 16), j = ix2 p q := ⟨j 0, j 1, eq_ix2 (n0 := 200) (n1 := 16) j⟩
  have hp : p.val < 200 := p.isLt
  have hq : q.val < 16 := q.isLt
  have e3 : ((cfg0.win 3).blk t).view.emb (ix2 p q) = ix2 (⟨t.val * 200 + p.val, by omega⟩ : Fin 10000) q := by
    funext a; apply Fin.ext
    match a with
    | ⟨0, _⟩ => show win0_3.index t (0 : Fin 2) * 200 + 1 * p.val = t.val * 200 + p.val; omega
    | ⟨1, _⟩ => show win0_3.index t (1 : Fin 2) * 16 + 1 * q.val = q.val; omega
  show scaledProduct (iblk m c 0 t) (iblk m c 1 t) (iblk m c 2 t) (ix2 p q)
    = scaledProduct (V m c main_arg0) (V m c main_v10) (V m c main_v13) (((cfg0.win 3).blk t).view.emb (ix2 p q))
  rw [e3]
  refine scaledProduct_band _ _ _ _ _ _ p q _ (fun k => ?_) ?_ (fun k => ?_)
  · show V m c main_arg0 (((cfg0.win 0).blk t).view.emb (ix2 p k)) = _
    refine congrArg _ ?_
    have hk : k.val < 10000 := k.isLt
    funext a; apply Fin.ext
    match a with
    | ⟨0, _⟩ => show win0_0.index t (0 : Fin 2) * 200 + 1 * p.val = t.val * 200 + p.val; omega
    | ⟨1, _⟩ => show win0_0.index t (1 : Fin 2) * 10000 + 1 * k.val = k.val; omega
  · show V m c main_v10 (((cfg0.win 1).blk t).view.emb (ix2 p (0 : Fin 1))) = _
    refine congrArg _ ?_
    funext a; apply Fin.ext
    match a with
    | ⟨0, _⟩ => show win0_1.index t (0 : Fin 2) * 200 + 1 * p.val = t.val * 200 + p.val; omega
    | ⟨1, _⟩ => show win0_1.index t (1 : Fin 2) * 1 + 1 * 0 = 0; omega
  · show V m c main_v13 (((cfg0.win 2).blk t).view.emb (ix2 k q)) = _
    refine congrArg _ ?_
    have hk : k.val < 10000 := k.isLt
    funext a; apply Fin.ext
    match a with
    | ⟨0, _⟩ => show win0_2.index t (0 : Fin 2) * 10000 + 1 * k.val = k.val; omega
    | ⟨1, _⟩ => show win0_2.index t (1 : Fin 2) * 16 + 1 * q.val = q.val; omega

/-- An index of the output array is in point `t`'s band iff each coordinate is in the band's range on its axis. -/
theorem mem_band (t : Fin cfg0.N) (i : S10000x16.Idx) :
    i ∈ ((cfg0.win 3).blk t).view.set ↔ ∀ a : Fin 2, win0_3.index t a * S200x16.size a ≤ (i a).val
      ∧ (i a).val < win0_3.index t a * S200x16.size a + S200x16.size a := by
  show i ∈ ((View.whole main_v14).slice (win0_3.rect t)).set ↔ _
  rw [View.set_slice_whole, Rect.mem_set_unit]
  exact Iff.rfl

/-- Every index of the output array is in the band of the point its row belongs to, row `r` to point `r / 200`. -/
theorem covered (i : S10000x16.Idx) :
    ∃ t : Fin cfg0.N, (cfg0.win 3).flush t = true ∧ i ∈ ((cfg0.win 3).blk t).view.set := by
  have hi0 : (i 0).val < 10000 := (i 0).isLt
  have hi1 : (i 1).val < 16 := (i 1).isLt
  have hN : (i 0).val / 200 < cfg0.N := Nat.lt_of_lt_of_eq (by omega : (i 0).val / 200 < 50) (N_0 : cfg0.N = 50).symm
  obtain ⟨-, -, -, -, -, -, e30, e31⟩ := block_indices ⟨(i 0).val / 200, hN⟩
  refine ⟨⟨(i 0).val / 200, hN⟩, flush0_3 _, ?_⟩
  rw [mem_band]
  intro a
  match a with
  | ⟨0, _⟩ =>
    show win0_3.index ⟨(i 0).val / 200, hN⟩ (0 : Fin 2) * 200 ≤ (i 0).val
      ∧ (i 0).val < win0_3.index ⟨(i 0).val / 200, hN⟩ (0 : Fin 2) * 200 + 200
    rw [e30]; show (i 0).val / 200 * 200 ≤ (i 0).val ∧ (i 0).val < (i 0).val / 200 * 200 + 200; omega
  | ⟨1, _⟩ =>
    show win0_3.index ⟨(i 0).val / 200, hN⟩ (1 : Fin 2) * 16 ≤ (i 1).val
      ∧ (i 1).val < win0_3.index ⟨(i 0).val / 200, hN⟩ (1 : Fin 2) * 16 + 16
    rw [e31]; omega

/-- The output array after the last point: the scaled product of the arrays the region found. -/
theorem array_eq (c : Dev nD) :
    (dats m 0 c).arrAt 3 cfg0.N = scaledProduct (V m c main_arg0) (V m c main_v10) (V m c main_v13) :=
  (dats m 0 c).arrAt_eq_of_cover 3 _ (fun t _ => flushed_eq m c t) covered

end Cert.Gcn

end
-- ==== Proof.HostLayers.lean ====
/-
  The graph-convolution layers around the first linear transform, as functions of whole arrays.

  Both programs compute the same two-layer network on a graph given by edge lists `src`, `dst` over 10000 nodes.
  A node's degree factor is `1 / sqrt (max 1 degree)`, the degree counted by adding a one per edge at the edge's
  endpoint (`degreeFactor`, kept as a column). A layer gathers the transformed features at each edge's source node
  (a negative index wrapped round, `wrapIdx`), adds them up at the edge's target node, scales every node's row by its
  in-degree factor and adds the bias. The first layer ends in `max · 0`; the second first scales the rows by the
  out-degree factor and multiplies by the second weight matrix. Everything here is the same operation list in both
  programs; only the first transform `h` is computed differently, so it is the parameter.
-/
import proofs.«102669_j68204080660483_1_alg».proof.Proof.Gen.ReferenceIdeal
import Idealize.ShloMosaic.PureOps.Ideal

noncomputable section

namespace Cert.Gcn

open Cert.ReferenceIdeal Cert.ReferenceIdeal.Gen Idealize.ShloMosaic

/-- An edge list's endpoint array: 320000 node indices. -/
abbrev Endpoints : Type := (⟨S320000, .i32⟩ : BufTy).Contents (Elt Ideal)

/-- `1 / sqrt (max 1 d)` per node, as a column, where `d` counts the edges whose endpoint in `idx` is the node. -/
def degreeFactor (idx : Endpoints) : FVec Ideal S10000x1 .f32 :=
  (broadcastInDim S10000x1 ![0] bcast_S10000_S10000x1_0 (Host.rsqrt (maximumf (broadcastInDim S10000 ![] bcast_S_S10000 (id (constant S_ .f32 0x3F800000#32))) (Host.scatterAdd scatter_S10000_S320000x1_S320000_n_0_0_1 (broadcastInDim S10000 ![] bcast_S_S10000 (constant S_ .f32 0x00000000#32)) (broadcastInDim S320000x1 ![0] bcast_S320000_S320000x1_0 idx) (broadcastInDim S320000 ![] bcast_S_S320000 (constant S_ .f32 0x3F800000#32))))))

/-- A negative node index `i` stands for `i + 10000`. -/
def wrapIdx (src : Endpoints) : Endpoints :=
  (select (cmpi .slt src (broadcastInDim S320000 ![] bcast_S_S320000 (constantI S_ 32 0#32))) (addi src (broadcastInDim S320000 ![] bcast_S_S320000 (constantI S_ 32 10000#32))) src)

/-- The first layer after its linear transform `h`: sum `h`'s rows over each node's incoming edges, scale by the
    in-degree factor, add the bias, clamp below at zero. -/
def hiddenLayer (h : FVec Ideal S10000x16 .f32) (ndst : FVec Ideal S10000x1 .f32) (src dst : Endpoints)
    (b1 : FVec Ideal S16 .f32) : FVec Ideal S10000x16 .f32 :=
  (maximumf (addf (mulf (Host.scatterAdd scatter_S10000x16_S320000x1_S320000x16_1_0_0_1 (broadcastInDim S10000x16 ![] bcast_S_S10000x16 (constant S_ .f32 0x00000000#32)) (broadcastInDim S320000x1 ![0] bcast_S320000_S320000x1_0 dst) (Host.gather gather_S10000x16_S320000x1_S320000x16_1_0_n_n_0_1_116 h (broadcastInDim S320000x1 ![0] bcast_S320000_S320000x1_0 (wrapIdx src)))) (broadcastInDim S10000x16 ![0, 1] bcast_S10000x1_S10000x16_0_1 ndst)) (broadcastInDim S10000x16 ![0, 1] bcast_S1x16_S10000x16_0_1 (broadcastInDim S1x16 ![1] bcast_S16_S1x16_1 b1))) (broadcastInDim S10000x16 ![] bcast_S_S10000x16 (constant S_ .f32 0x00000000#32)))

/-- The second layer: scale rows by the out-degree factor, multiply by `w2`, sum over incoming edges, scale by the
    in-degree factor, add the bias. -/
def outputLayer (x : FVec Ideal S10000x16 .f32) (nsrc ndst : FVec Ideal S10000x1 .f32) (src dst : Endpoints)
    (w2 : FVec Ideal S16x7 .f32) (b2 : FVec Ideal S7 .f32) : FVec Ideal S10000x7 .f32 :=
  addf (mulf (Host.scatterAdd scatter_S10000x7_S320000x1_S320000x7_1_0_0_1 (broadcastInDim S10000x7 ![] bcast_S_S10000x7 (constant S_ .f32 0x00000000#32)) (broadcastInDim S320000x1 ![0] bcast_S320000_S320000x1_0 dst) (Host.gather gather_S10000x7_S320000x1_S320000x7_1_0_n_n_0_1_17 (Host.dotGeneral dot_S10000x16_S16x7_S10000x7_1_0_0_1_n_n none (mulf x (broadcastInDim S10000x16 ![0, 1] bcast_S10000x1_S10000x16_0_1 nsrc)) w2) (broadcastInDim S320000x1 ![0] bcast_S320000_S320000x1_0 (wrapIdx src)))) (broadcastInDim S10000x7 ![0, 1] bcast_S10000x1_S10000x7_0_1 ndst)) (broadcastInDim S10000x7 ![0, 1] bcast_S1x7_S10000x7_0_1 (broadcastInDim S1x7 ![1] bcast_S7_S1x7_1 b2))

/-- Both layers after the first linear transform `h`. -/
def layers (h : FVec Ideal S10000x16 .f32) (nsrc ndst : FVec Ideal S10000x1 .f32) (src dst : Endpoints)
    (b1 : FVec Ideal S16 .f32) (w2 : FVec Ideal S16x7 .f32) (b2 : FVec Ideal S7 .f32) : FVec Ideal S10000x7 .f32 :=
  outputLayer (hiddenLayer h ndst src dst b1) nsrc ndst src dst w2 b2

end Cert.Gcn

end
-- ==== Proof.KernelOps.lean ====
/-
  The outlined helper functions' operations in plain spelling.

  The two clamps `max 1 ·` of the degree counts and the clamp `max · 0` of the hidden layer are printed as calls of
  module-local functions, whose operations are written over references that carry the type of the value they hold.
  At the call sites every such reference carries its own buffer's type, so each operation is the plain operation at
  the same buffers with the same function; the three lists below say so, one list per call.
-/
import proofs.«102669_j68204080660483_1_alg».proof.Proof.Gen.KernelIdeal.Launch
import Idealize.ShloMosaic.PureOps.Ideal

noncomputable section

namespace Cert.Gcn

open Cert.KernelIdeal Cert.KernelIdeal.Gen Idealize.ShloMosaic Idealize.SL.Sem

/-- The clamp of the out-degree counts. -/
theorem clampSrc_plain : (hostOps0_1 : List (HloOp τ sig (Elt Ideal))) =
    [ StableHlo.unary main_cst_1 main_call0_v0 (id : (⟨S_, .f32⟩ : BufTy).Contents (Elt Ideal) → (⟨S_, .f32⟩ : BufTy).Contents (Elt Ideal)),
      StableHlo.unary main_call0_v0 main_call0_v1 (broadcastInDim S10000 ![] bcast_S_S10000 : (⟨S_, .f32⟩ : BufTy).Contents (Elt Ideal) → (⟨S10000, .f32⟩ : BufTy).Contents (Elt Ideal)),
      StableHlo.binary main_call0_v1 main_v3 main_v4 (maximumf (F := Ideal) (s := S10000) (φ := .f32) : (⟨S10000, .f32⟩ : BufTy).Contents (Elt Ideal) → (⟨S10000, .f32⟩ : BufTy).Contents (Elt Ideal) → (⟨S10000, .f32⟩ : BufTy).Contents (Elt Ideal)) ] := rfl

/-- The clamp of the in-degree counts. -/
theorem clampDst_plain : (hostOps0_3 : List (HloOp τ sig (Elt Ideal))) =
    [ StableHlo.unary main_cst_3 main_call1_v0 (id : (⟨S_, .f32⟩ : BufTy).Contents (Elt Ideal) → (⟨S_, .f32⟩ : BufTy).Contents (Elt Ideal)),
      StableHlo.unary main_call1_v0 main_call1_v1 (broadcastInDim S10000 ![] bcast_S_S10000 : (⟨S_, .f32⟩ : BufTy).Contents (Elt Ideal) → (⟨S10000, .f32⟩ : BufTy).Contents (Elt Ideal)),
      StableHlo.binary main_call1_v1 main_v7 main_v8 (maximumf (F := Ideal) (s := S10000) (φ := .f32) : (⟨S10000, .f32⟩ : BufTy).Contents (Elt Ideal) → (⟨S10000, .f32⟩ : BufTy).Contents (Elt Ideal) → (⟨S10000, .f32⟩ : BufTy).Contents (Elt Ideal)) ] := rfl

/-- The clamp of the hidden layer. -/
theorem clampHidden_plain : (hostOps1_1 : List (HloOp τ sig (Elt Ideal))) =
    [ StableHlo.nullary main_call2_cst (constant (F := Ideal) S_ .f32 0x00000000#32),
      StableHlo.unary main_call2_cst main_call2_v0 (broadcastInDim S10000x16 ![] bcast_S_S10000x16 : (⟨S_, .f32⟩ : BufTy).Contents (Elt Ideal) → (⟨S10000x16, .f32⟩ : BufTy).Contents (Elt Ideal)),
      StableHlo.binary main_v29 main_call2_v0 main_v30 (maximumf (F := Ideal) (s := S10000x16) (φ := .f32) : (⟨S10000x16, .f32⟩ : BufTy).Contents (Elt Ideal) → (⟨S10000x16, .f32⟩ : BufTy).Contents (Elt Ideal) → (⟨S10000x16, .f32⟩ : BufTy).Contents (Elt Ideal)) ] := rfl

end Cert.Gcn

end
-- ==== Proof.KernelHost.lean ====
/-
  The kernel program's host operations, before and after the region.

  Before the region the host computes the two degree factor columns from the edge lists and narrows the first
  weight matrix to bf16, which at the exact values leaves it as it is. After the region the host runs the two layers
  on the region's output array. Read off whatever contents the buffers hold when the region ends, the result buffer
  holds the layers applied to the contents of the region's output, of the two factor columns, of the edge lists, of the
  biases and of the second weight matrix.
-/
import proofs.«102669_j68204080660483_1_alg».proof.Proof.Gen.KernelIdeal.Frame
import proofs.«102669_j68204080660483_1_alg».proof.Proof.HostLayers
import proofs.«102669_j68204080660483_1_alg».proof.Proof.KernelOps
import Idealize.ShloMosaic.Lib.StableHlo.Run

noncomputable section

namespace Cert.Gcn

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-! ## Before the region -/

/-- The region finds the out-degree factor column of the source endpoints in its second operand. -/
theorem entry_srcFactor (c : Dev nD) : V m c main_v10 = degreeFactor (m ((c : Thread nD τ).loc main_arg1)) := by
  dsimp only [V, V0]
  rw [clampSrc_plain, clampDst_plain]
  simp only [hostOps0, hostOps0_2, hostOps0_4, List.flatten_cons, List.flatten_nil, List.append_nil,
    List.cons_append, List.nil_append]
  after_results_simp
  rfl

/-- The in-degree factor column of the target endpoints, which only the host reads. -/
theorem entry_dstFactor (c : Dev nD) : V m c main_v12 = degreeFactor (m ((c : Thread nD τ).loc main_arg2)) := by
  dsimp only [V, V0]
  rw [clampSrc_plain, clampDst_plain]
  simp only [hostOps0, hostOps0_2, hostOps0_4, List.flatten_cons, List.flatten_nil, List.append_nil,
    List.cons_append, List.nil_append]
  after_results_simp
  rfl

/-- The region finds the first weight matrix in its third operand: narrowing is the identity on exact values. -/
theorem entry_weights (c : Dev nD) : V m c main_v13 = (m ((c : Thread nD τ).loc main_arg3)) := by
  dsimp only [V, V0]
  rw [clampSrc_plain, clampDst_plain]
  simp only [hostOps0, hostOps0_2, hostOps0_4, List.flatten_cons, List.flatten_nil, List.append_nil,
    List.cons_append, List.nil_append]
  after_results_simp
  rfl

/-! ## After the region -/

/-- The host operations after the region, from any buffer contents `W`: the result buffer ends at the two layers of
    `W`'s contents. -/
theorem tail_of (W : Valuation τ sig (Elt Ideal)) :
    StableHlo.after (List.flatten [hostOps1, hostOps1_1, hostOps1_2]) W (Proc.devRef .tc main_v48)
      = layers (W (Proc.devRef .tc main_v14)) (W (Proc.devRef .tc main_v10)) (W (Proc.devRef .tc main_v12))
          (W (Proc.devRef .tc main_arg1)) (W (Proc.devRef .tc main_arg2)) (W (Proc.devRef .tc main_arg4))
          (W (Proc.devRef .tc main_arg5)) (W (Proc.devRef .tc main_arg6)) := by
  rw [clampHidden_plain]
  simp only [hostOps1, hostOps1_2, List.flatten_cons, List.flatten_nil, List.append_nil, List.cons_append,
    List.nil_append]
  after_results_simp
  rfl

/-- The buffer contents when the region ends: the pipeline's arrays as the run leaves them, every other buffer as
    the region found it. -/
abbrev afterRegion (c : Dev nD) : Valuation τ sig (Elt Ideal) :=
  Pipeline.withArrays (cfgs 0).spec c (V0 m c) fun w => (dats m 0 c).arrAt w (cfgs 0).N

/-- The region's output array. -/
theorem afterRegion_output (c : Dev nD) :
    afterRegion m c (Proc.devRef .tc main_v14) = (dats m 0 c).arrAt 3 cfg0.N :=
  Pipeline.withArrays_arr spec0 launch0.win.arr_inj c _ _ 3

/-- The factor column the region staged and never wrote. -/
theorem afterRegion_srcFactor (c : Dev nD) : afterRegion m c (Proc.devRef .tc main_v10) = V m c main_v10 :=
  (Pipeline.withArrays_arr spec0 launch0.win.arr_inj c _ _ 1).trans
    (((dats m 0 c).arrAt_in 1 rfl _).trans (A_eq m c 1))

/-- A buffer that is no array of the pipeline. -/
theorem afterRegion_other (c : Dev nD) (b : Ref sig .tc) (hb : ∀ w, Pipeline.arrRef spec0 w ≠ b) :
    afterRegion m c (Proc.devRef .tc b) = V m c b :=
  Pipeline.withArrays_of_ne _ c (V0 m c) _ b hb

/-- The result buffer after the host operations that follow the region. -/
theorem kernelResult_layers (c : Dev nD) :
    Pipeline.afterTail₀ cfgs (dats m) 0 (V0 m) [hostOps1, hostOps1_1, hostOps1_2] c main_v48
      = layers ((dats m 0 c).arrAt 3 cfg0.N) (degreeFactor (m ((c : Thread nD τ).loc main_arg1))) (degreeFactor (m ((c : Thread nD τ).loc main_arg2)))
          (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after (List.flatten [hostOps1, hostOps1_1, hostOps1_2]) (afterRegion m c) (Proc.devRef .tc main_v48) = _
  rw [tail_of, afterRegion_output, afterRegion_srcFactor,
    afterRegion_other m c main_v12 (by decide), afterRegion_other m c main_arg1 (by decide),
    afterRegion_other m c main_arg2 (by decide), afterRegion_other m c main_arg4 (by decide),
    afterRegion_other m c main_arg5 (by decide), afterRegion_other m c main_arg6 (by decide),
    entry_srcFactor, entry_dstFactor, V_main_arg1, V_main_arg2, V_main_arg4, V_main_arg5, V_main_arg6]

end Cert.Gcn

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.ReferenceSide.lean ====
/-
  The reference's result, read as the layers applied to its first linear transform.

  The reference spreads the out-degree factor column across all 10000 columns, multiplies the features by it entry
  by entry, and multiplies the scaled features by the first weight matrix in one whole-array product; entry
  `(p, q)` of that product is `∑ k, (x (p, k) * n (p, 0)) * w (k, q)`, the scaled product. The rest of its operation
  list is the two layers.
-/
import proofs.«102669_j68204080660483_1_alg».proof.Proof.Gen.ReferenceIdeal.Run
import proofs.«102669_j68204080660483_1_alg».proof.Proof.HostLayers
import proofs.«102669_j68204080660483_1_alg».proof.Proof.ScaledProduct
import proofs.«102669_j68204080660483_1_alg».proof.Proof.LibPlainDot
import proofs.«102669_j68204080660483_1_alg».proof.Proof.LibRowBroadcasts

noncomputable section

namespace Cert.Gcn

open Cert.ReferenceIdeal Cert.ReferenceIdeal.Gen Idealize.ShloMosaic Idealize.ShloMosaic.TcCoe Idealize.SL.Sem
open Idealize.ShloMosaic.ValueIdx
open scoped BigOperators

/-- The reference's first transform is the scaled product. -/
theorem refProduct_eq (a0 : FVec Ideal S10000x10000 .f32) (n : FVec Ideal S10000x1 .f32) (w : FVec Ideal S10000x16 .f32) :
    Host.dotGeneral dot_S10000x10000_S10000x16_S10000x16_1_0_0_1_n_n none
        (mulf a0 (broadcastInDim S10000x10000 ![0, 1] bcast_S10000x1_S10000x10000_0_1 n)) w
      = scaledProduct a0 n w := by
  funext j
  obtain ⟨p, q, rfl⟩ : ∃ (p : Fin 10000) (q : Fin 16), j = ix2 p q := ⟨j 0, j 1, eq_ix2 j⟩
  rw [show dot_S10000x10000_S10000x16_S10000x16_1_0_0_1_n_n
      = Cert.Lib.PlainDot.dims dot_S10000x10000_S10000x16_S10000x16_1_0_0_1_n_n_wf from rfl,
    Cert.Lib.PlainDot.dotGeneral_apply, scaledProduct_apply]
  refine Finset.sum_congr rfl fun k _ => ?_
  rw [mulf_apply, Cert.Lib.Rows.dimCol_apply]

/-- The reference's result term is the two layers applied to its first transform, with the two degree factors. -/
theorem refResult_eq (m : (ℓ : Loc nD τ sig) → Buf (Elt Ideal) ℓ) (c : Dev nD) :
    Cert.ReferenceIdeal.Value.res_main_v49 (F := Ideal) m c
      = layers
          (Host.dotGeneral (φ₁ := .f32) (φ₂ := .f32) dot_S10000x10000_S10000x16_S10000x16_1_0_0_1_n_n none
            (mulf (m ((c.tc : Thread nD τ).loc main_arg0))
              (broadcastInDim S10000x10000 ![0, 1] bcast_S10000x1_S10000x10000_0_1 (degreeFactor (m ((c.tc : Thread nD τ).loc main_arg1)))))
            (m ((c.tc : Thread nD τ).loc main_arg3)))
          (degreeFactor (m ((c.tc : Thread nD τ).loc main_arg1))) (degreeFactor (m ((c.tc : Thread nD τ).loc main_arg2)))
          (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  unfold Cert.ReferenceIdeal.Value.res_main_v49
  rfl

end Cert.Gcn

end
-- ==== Proof.Bridge.lean ====
/-
  The two programs end with equal results.

  The kernel program's region leaves the scaled product of the features, the out-degree factor column and the first
  weight matrix in its output array, and the host operations after the region apply the two layers to it. The
  reference computes the same scaled product by one whole-array multiplication and matrix product and applies the same
  two layers. So from memories that agree on the seven arguments both results are the two layers of the scaled
  product of the arguments. No finiteness of the inputs is used: the two sums have the same terms in the same
  order.
-/
import proofs.«102669_j68204080660483_1_alg».proof.Defs
import proofs.«102669_j68204080660483_1_alg».proof.Proof.Gen.KernelIdeal.Frame
import proofs.«102669_j68204080660483_1_alg».proof.Proof.Gen.ReferenceIdeal.Run
import proofs.«102669_j68204080660483_1_alg».proof.Proof.Gen.Pre_finite_inputs
import proofs.«102669_j68204080660483_1_alg».proof.Proof.KernelArray
import proofs.«102669_j68204080660483_1_alg».proof.Proof.KernelHost
import proofs.«102669_j68204080660483_1_alg».proof.Proof.ReferenceSide

noncomputable section

namespace Cert.Gcn

open Idealize.ShloMosaic Idealize.ShloMosaic.TcCoe Idealize.SL.Sem

/-- The network's output as a function of the seven argument arrays on core `c`. -/
def network (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v48) :=
  layers (scaledProduct (m ((c.tc : Thread Cert.KernelIdeal.nD Cert.KernelIdeal.τ).loc Cert.KernelIdeal.main_arg0)) (degreeFactor (m ((c.tc : Thread Cert.KernelIdeal.nD Cert.KernelIdeal.τ).loc Cert.KernelIdeal.main_arg1))) (m ((c.tc : Thread Cert.KernelIdeal.nD Cert.KernelIdeal.τ).loc Cert.KernelIdeal.main_arg3)))
    (degreeFactor (m ((c.tc : Thread Cert.KernelIdeal.nD Cert.KernelIdeal.τ).loc Cert.KernelIdeal.main_arg1))) (degreeFactor (m ((c.tc : Thread Cert.KernelIdeal.nD Cert.KernelIdeal.τ).loc Cert.KernelIdeal.main_arg2))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

section Kernel

open Cert.KernelIdeal Cert.KernelIdeal.Gen

variable (m : (ℓ : Loc nD τ sig) → Buf (Elt Ideal) ℓ) (ρ : Dev nD → PrngReg)

/-- What the host operations after the region leave in the result buffer is the network's output. -/
theorem kernelResult_eq (c : Dev nD) :
    Pipeline.afterTail₀ cfgs (dats m) 0 (V0 m) [hostOps1, hostOps1_1, hostOps1_2] c main_v48 = network m c := by
  rw [kernelResult_layers, array_eq, entry_srcFactor, entry_weights, V_main_arg0]
  rfl

/-- The kernel program's run: the result buffer at the network's output, the arguments unchanged. -/
theorem kernel_run : θ_run defs (onTc (τ := τ) (main (F := Ideal))) ⟨m, fun _ => 0, ρ⟩ (fun r => ∀ c : Dev nD,
      r.2.mem ((c.tc : Thread nD τ).loc main_v48) = network m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v48 (Pipeline.mem_restRefs_of main_v48 (by decide) (by decide))).trans (kernelResult_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Kernel

/-- The idealized kernel program and the idealized reference end with equal results. -/
theorem algebraic : Cert.algebraic_KernelIdeal_ReferenceIdeal := by
  intro m ρ m' ρ' _ hagree
  refine ⟨fun c => network m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [refResult_eq, refProduct_eq, a0, a1, a2, a3, a4, a5, a6]
  rfl

end Cert.Gcn

end
-- ==== Proof.lean ====
/-
  A two-layer graph convolution: the kernel program against its reference.

  Both programs take node features, two edge lists, two weight matrices and two biases, and compute
  `A (relu (A (X · n_src) W1 · n_dst + b1) · n_src) W2 · n_dst + b2`, where `A` adds rows along edges and `n_src`, `n_dst`
  are the degree factors `1 / sqrt (max 1 degree)`. They differ in one place only: the first product
  `(X · n_src) W1`, which the kernel program computes in a tiled region, 200 rows at a time, narrowing both factors to
  bf16 before a product that accumulates in f32, and the reference computes as one whole-array product. At the exact
  values narrowing is the identity and each output entry is the same sum
  `∑ k, (X (p, k) * n_src p) * W1 (k, q)` with the same terms, so the two results agree for all inputs; the
  precondition that the inputs are finite is not needed.

  The three programs run without fault and leave their arguments unchanged: the kernel programs by their generated
  frame certificates, the reference by its generated run. The idealization rewrote nothing, so there is nothing to
  preserve. The equality of results is `Cert.Gcn.algebraic`.
-/
import proofs.«102669_j68204080660483_1_alg».proof.Defs
import proofs.«102669_j68204080660483_1_alg».proof.Proof.Gen.Kernel
import proofs.«102669_j68204080660483_1_alg».proof.Proof.Gen.Kernel.Skeleton
import proofs.«102669_j68204080660483_1_alg».proof.Proof.Gen.Kernel.Launch
import proofs.«102669_j68204080660483_1_alg».proof.Proof.Gen.Kernel.Points
import proofs.«102669_j68204080660483_1_alg».proof.Proof.Gen.Kernel.Frame
import proofs.«102669_j68204080660483_1_alg».proof.Proof.Gen.KernelIdeal
import proofs.«102669_j68204080660483_1_alg».proof.Proof.Gen.KernelIdeal.Skeleton
import proofs.«102669_j68204080660483_1_alg».proof.Proof.Gen.KernelIdeal.Launch
import proofs.«102669_j68204080660483_1_alg».proof.Proof.Gen.KernelIdeal.Points
import proofs.«102669_j68204080660483_1_alg».proof.Proof.Gen.KernelIdeal.Frame
import proofs.«102669_j68204080660483_1_alg».proof.Proof.Gen.ReferenceIdeal
import proofs.«102669_j68204080660483_1_alg».proof.Proof.Gen.ReferenceIdeal.Run
import proofs.«102669_j68204080660483_1_alg».proof.Proof.Gen.Pre_finite_inputs
import proofs.«102669_j68204080660483_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Cert.Gcn.algebraic⟩

end Cert.Proof

end
